-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x512 : Shape := ⟨2, ![200000, 512]⟩
abbrev S2x1000 : Shape := ⟨2, ![2, 1000]⟩
abbrev S1000 : Shape := ⟨1, ![1000]⟩
abbrev S200000 : Shape := ⟨1, ![200000]⟩
abbrev S200000x1 : Shape := ⟨2, ![200000, 1]⟩
abbrev S256x512 : Shape := ⟨2, ![256, 512]⟩
abbrev S256 : Shape := ⟨1, ![256]⟩
abbrev S1x256 : Shape := ⟨2, ![1, 256]⟩
abbrev S1 : Shape := ⟨1, ![1]⟩
abbrev S1x512 : Shape := ⟨2, ![1, 512]⟩
abbrev S_ : Shape := ⟨0, ![]⟩

class Facts : Prop where
  bcast_S_S200000x512 : S_.BroadcastsInDim S200000x512 (![] : Fin 0 → Fin S200000x512.rank)
  reducesTo_S200000x512_S_d0_1 : S200000x512.ReducesTo [0, 1] S_
  h_S_ : 0 < S_.numel
  bcast_S_S1000 : S_.BroadcastsInDim S1000 (![] : Fin 0 → Fin S1000.rank)
  reducesTo_S1000_S_d0 : S1000.ReducesTo [0] S_
  bcast_S_S200000x1 : S_.BroadcastsInDim S200000x1 (![] : Fin 0 → Fin S200000x1.rank)
  reducesTo_S200000x1_S_d0_1 : S200000x1.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_
  bcast_S_S1x512 : S_.BroadcastsInDim S1x512 (![] : Fin 0 → Fin S1x512.rank)
  reducesTo_S1x512_S_d0_1 : S1x512.ReducesTo [0, 1] S_

variable [Facts]

def fn_part2 {F : FTy → Type} [FloatOps F] (main_arg9 : FVec F S1x512 .f32) (main_arg10 : FVec F S1 .f32) (main_v33 : IVec S_ 1) : IVec S_ 1 :=
  let main_v34 : FVec F S1x512 .f32 := Host.absf main_arg9
  let main_cst_12 : FVec F S_ .f32 := constant S_ .f32 0x7F800000#32
  let main_v35 : FVec F S1x512 .f32 := broadcastInDim S1x512 ![] bcast_S_S1x512 main_cst_12
  let main_v36 : IVec S1x512 1 := cmpf .olt main_v34 main_v35
  let main_c_13 : IVec S_ 1 := constantI S_ 1 1#1
  let main_v37 : IVec S_ 1 := (fun x v => Host.reduce IntOp.andi x v reducesTo_S1x512_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S256 .f32) (main_arg7 : FVec F S1x256 .f32) (main_arg8 : FVec F S1 .f32) (main_arg9 : FVec F S1x512 .f32) (main_arg10 : FVec F S1 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S1x256 .f32 := Host.absf main_arg7
  let main_cst_8 : FVec F S_ .f32 := constant S_ .f32 0x7F800000#32
  let main_v25 : FVec F S1x256 .f32 := broadcastInDim S1x256 ![] bcast_S_S1x256 main_cst_8
  let main_v26 : IVec S1x256 1 := cmpf .olt main_v24 main_v25
  let main_c_9 : IVec S_ 1 := constantI S_ 1 1#1
  let main_v27 : IVec S_ 1 := (fun x v => Host.reduce IntOp.andi x v reducesTo_S1x256_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg9 main_arg10 main_v33

def fn {F : FTy → Type} [FloatOps F] (main_arg0 : FVec F S200000x512 .f32) (main_arg1 : IVec S2x1000 32) (main_arg2 : FVec F S1000 .f32) (main_arg3 : IVec S200000 32) (main_arg4 : FVec F S200000x1 .f32) (main_arg5 : FVec F S256x512 .f32) (main_arg6 : FVec F S256 .f32) (main_arg7 : FVec F S1x256 .f32) (main_arg8 : FVec F S1 .f32) (main_arg9 : FVec F S1x512 .f32) (main_arg10 : FVec F S1 .f32) : IVec S_ 1 :=
  let main_v0 : FVec F S200000x512 .f32 := Host.absf main_arg0
  let main_cst : FVec F S_ .f32 := constant S_ .f32 0x7F800000#32
  let main_v1 : FVec F S200000x512 .f32 := broadcastInDim S200000x512 ![] bcast_S_S200000x512 main_cst
  let main_v2 : IVec S200000x512 1 := cmpf .olt main_v0 main_v1
  let main_c : IVec S_ 1 := constantI S_ 1 1#1
  let main_v3 : IVec S_ 1 := (fun x v => Host.reduce IntOp.andi x v reducesTo_S200000x512_S_d0_1 h_S_) main_v2 main_c
  let main_v4 : FVec F S1000 .f32 := Host.absf main_arg2
  let main_cst_0 : FVec F S_ .f32 := constant S_ .f32 0x7F800000#32
  let main_v5 : FVec F S1000 .f32 := broadcastInDim S1000 ![] bcast_S_S1000 main_cst_0
  let main_v6 : IVec S1000 1 := cmpf .olt main_v4 main_v5
  let main_c_1 : IVec S_ 1 := constantI S_ 1 1#1
  let main_v7 : IVec S_ 1 := (fun x v => Host.reduce IntOp.andi x v reducesTo_S1000_S_d0 h_S_) main_v6 main_c_1
  let main_v8 : IVec S_ 1 := andi main_v3 main_v7
  let main_v9 : FVec F S200000x1 .f32 := Host.absf main_arg4
  let main_cst_2 : FVec F S_ .f32 := constant S_ .f32 0x7F800000#32
  let main_v10 : FVec F S200000x1 .f32 := broadcastInDim S200000x1 ![] bcast_S_S200000x1 main_cst_2
  let main_v11 : IVec S200000x1 1 := cmpf .olt main_v9 main_v10
  let main_c_3 : IVec S_ 1 := constantI S_ 1 1#1
  let main_v12 : IVec S_ 1 := (fun x v => Host.reduce IntOp.andi x v reducesTo_S200000x1_S_d0_1 h_S_) main_v11 main_c_3
  let main_v13 : IVec S_ 1 := andi main_v8 main_v12
  let main_v14 : FVec F S256x512 .f32 := Host.absf main_arg5
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg6 main_arg7 main_arg8 main_arg9 main_arg10 main_v13 main_v16
-- ==== Kernel.lean ====
abbrev S200000x512 : Shape := ⟨2, ![200000, 512]⟩
abbrev S2x1000 : Shape := ⟨2, ![2, 1000]⟩
abbrev S1000 : Shape := ⟨1, ![1000]⟩
abbrev S200000 : Shape := ⟨1, ![200000]⟩
abbrev S200000x1 : Shape := ⟨2, ![200000, 1]⟩
abbrev S256x512 : Shape := ⟨2, ![256, 512]⟩
abbrev S256 : Shape := ⟨1, ![256]⟩
abbrev S1x256 : Shape := ⟨2, ![1, 256]⟩
abbrev S1 : Shape := ⟨1, ![1]⟩
abbrev S1x512 : Shape := ⟨2, ![1, 512]⟩
abbrev S512x256 : Shape := ⟨2, ![512, 256]⟩
abbrev S256x1 : Shape := ⟨2, ![256, 1]⟩
abbrev S512x1 : Shape := ⟨2, ![512, 1]⟩
abbrev S1x1 : Shape := ⟨2, ![1, 1]⟩
abbrev S2000x512 : Shape := ⟨2, ![2000, 512]⟩
abbrev S2000x1 : Shape := ⟨2, ![2000, 1]⟩
abbrev S2000x256 : Shape := ⟨2, ![2000, 256]⟩
abbrev S_ : Shape := ⟨0, ![]⟩

abbrev nBuf : Space → Nat
  | .hbm => 25
  | .vmem => 10
  | .smem => 0
  | _ => 0

abbrev bufTy : (tb : Table) → Fin (tcTables nBuf tb) → BufTy
  | .hbm, ⟨0, _⟩ => ⟨S200000x512, .f32⟩
  | .hbm, ⟨1, _⟩ => ⟨S2x1000, .i32⟩
  | .hbm, ⟨2, _⟩ => ⟨S1000, .f32⟩
  | .hbm, ⟨3, _⟩ => ⟨S200000, .i32⟩
  | .hbm, ⟨4, _⟩ => ⟨S200000x1, .f32⟩
  | .hbm, ⟨5, _⟩ => ⟨S256x512, .f32⟩
  | .hbm, ⟨6, _⟩ => ⟨S256, .f32⟩
  | .hbm, ⟨7, _⟩ => ⟨S1x256, .f32⟩
  | .hbm, ⟨8, _⟩ => ⟨S1, .f32⟩
  | .hbm, ⟨9, _⟩ => ⟨S1x512, .f32⟩
  | .hbm, ⟨10, _⟩ => ⟨S1, .f32⟩
  | .hbm, ⟨11, _⟩ => ⟨S512x256, .f32⟩
  | .hbm, ⟨12, _⟩ => ⟨S512x256, .bf16⟩
  | .hbm, ⟨13, _⟩ => ⟨S256x1, .f32⟩
  | .hbm, ⟨14, _⟩ => ⟨S256x1, .bf16⟩
  | .hbm, ⟨15, _⟩ => ⟨S512x1, .f32⟩
  | .hbm, ⟨16, _⟩ => ⟨S512x1, .bf16⟩
  | .hbm, ⟨17, _⟩ => ⟨S1x256, .f32⟩
  | .hbm, ⟨18, _⟩ => ⟨S1x1, .f32⟩
  | .hbm, ⟨19, _⟩ => ⟨S1x1, .f32⟩
  | .hbm, ⟨20, _⟩ => ⟨S200000x1, .f32⟩
  | .hbm, ⟨21, _⟩ => ⟨S_, .f32⟩
  | .hbm, ⟨22, _⟩ => ⟨S2000x1, .f32⟩
  | .hbm, ⟨23, _⟩ => ⟨S200000x1, .i32⟩
  | .hbm, ⟨24, _⟩ => ⟨S2000x1, .f32⟩
  | .local _ .vmem, ⟨0, _⟩ => ⟨S2000x512, .f32⟩
  | .local _ .vmem, ⟨1, _⟩ => ⟨S2000x512, .f32⟩
  | .local _ .vmem, ⟨2, _⟩ => ⟨S512x256, .bf16⟩
  | .local _ .vmem, ⟨3, _⟩ => ⟨S1x256, .f32⟩
  | .local _ .vmem, ⟨4, _⟩ => ⟨S256x1, .bf16⟩
  | .local _ .vmem, ⟨5, _⟩ => ⟨S1x1, .f32⟩
  | .local _ .vmem, ⟨6, _⟩ => ⟨S512x1, .bf16⟩
  | .local _ .vmem, ⟨7, _⟩ => ⟨S1x1, .f32⟩
  | .local _ .vmem, ⟨8, _⟩ => ⟨S2000x1, .f32⟩
  | .local _ .vmem, ⟨9, _⟩ => ⟨S2000x1, .f32⟩
  | _, _ => ⟨S200000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S256x512_S512x256_1_0 : S256x512.Transposes [1, 0] S512x256
  bitsLt_bf16_f32 : FTy.bits .bf16 < FTy.bits .f32
  transposes_S1x256_S256x1_1_0 : S1x256.Transposes [1, 0] S256x1
  transposes_S1x512_S512x1_1_0 : S1x512.Transposes [1, 0] S512x1
  shapeCasts_S256_S1x256 : S256.ShapeCasts S1x256
  shapeCasts_S1_S1x1 : S1.ShapeCasts S1x1
  inb_S2000x512_S2000x512_0_0 : ∀ a, (![0, 0] : Fin 2 → Nat) a + S2000x512.size a ≤ S2000x512.size a
  h_S2000x512 : 0 < S2000x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S2000x1_S2000x1_0_0 : ∀ a, (![0, 0] : Fin 2 → Nat) a + S2000x1.size a ≤ S2000x1.size a
  h_S2000x1 : 0 < S2000x1.numel
  bcast_S_S2000x1 : S_.BroadcastsInDim S2000x1 (![] : Fin 0 → Fin S2000x1.rank)
  bcast_S200000_S200000x1_0 : S200000.BroadcastsInDim S200000x1 (![0] : Fin 1 → Fin S200000x1.rank)
  dot_S2000x512_S512x256_S2000x256_1_0_0_1_n_n_wf : DotDims.WF S2000x512 S512x256 S2000x256 [1] [0] [0] [1] [] []
  dot_S2000x256_S256x1_S2000x1_1_0_0_1_n_n_wf : DotDims.WF S2000x256 S256x1 S2000x1 [1] [0] [0] [1] [] []
  dot_S2000x512_S512x1_S2000x1_1_0_0_1_n_n_wf : DotDims.WF S2000x512 S512x1 S2000x1 [1] [0] [0] [1] [] []
  scatter_S2000x1_S200000x1_S200000x1_1_0_0_1_wf : ScatterDims.WF S2000x1 S200000x1 S200000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S200000x512.size a
  hwx0_0 : ∀ i : grid0.Coords, EltTy.bits .f32 = 32 ∨ (Rect.block (s := S200000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .bf16 = 32 ∨ (Rect.block (s := S256x1) S256x1.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S512x1.size a
  hwx0_5 : ∀ i : grid0.Coords, EltTy.bits .bf16 = 32 ∨ (Rect.block (s := S512x1) S512x1.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x1.size a ≤ S200000x1.size a
  hwx0_7 : ∀ i : grid0.Coords, EltTy.bits .f32 = 32 ∨ (Rect.block (s := S200000x1) S2000x1.size (cc0_transform_7 i) (hinb0_7 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf
def dot_S2000x512_S512x1_S2000x1_1_0_0_1_n_n : DotDims S2000x512 S512x1 S2000x1 where
  lhsContracting := [1]
  rhsContracting := [0]
  lhsNonContracting := [0]
  rhsNonContracting := [1]
  lhsBatch := []
  rhsBatch := []
  wf := dot_S2000x512_S512x1_S2000x1_1_0_0_1_n_n_wf
def scatter_S2000x1_S200000x1_S200000x1_1_0_0_1 : ScatterDims S2000x1 S200000x1 S200000x1 where
  updateWindowDims := [1]
  insertedWindowDims := [0]
  scatterDimsToOperandDims := [0]
  indexVectorDim := 1
  wf := scatter_S2000x1_S200000x1_S200000x1_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S2000x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S200000x512 : Shape := ⟨2, ![200000, 512]⟩
abbrev S2x1000 : Shape := ⟨2, ![2, 1000]⟩
abbrev S1000 : Shape := ⟨1, ![1000]⟩
abbrev S200000 : Shape := ⟨1, ![200000]⟩
abbrev S200000x1 : Shape := ⟨2, ![200000, 1]⟩
abbrev S256x512 : Shape := ⟨2, ![256, 512]⟩
abbrev S256 : Shape := ⟨1, ![256]⟩
abbrev S1x256 : Shape := ⟨2, ![1, 256]⟩
abbrev S1 : Shape := ⟨1, ![1]⟩
abbrev S1x512 : Shape := ⟨2, ![1, 512]⟩
abbrev S512x1 : Shape := ⟨2, ![512, 1]⟩
abbrev S1x1 : Shape := ⟨2, ![1, 1]⟩
abbrev S512x256 : Shape := ⟨2, ![512, 256]⟩
abbrev S200000x256 : Shape := ⟨2, ![200000, 256]⟩
abbrev S_ : Shape := ⟨0, ![]⟩
abbrev S256x1 : Shape := ⟨2, ![256, 1]⟩
abbrev S2000x1 : Shape := ⟨2, ![2000, 1]⟩

abbrev nBuf : Space → Nat
  | .hbm => 40
  | .vmem => 0
  | .smem => 0
  | _ => 0

abbrev bufTy : (tb : Table) → Fin (tcTables nBuf tb) → BufTy
  | .hbm, ⟨0, _⟩ => ⟨S200000x512, .f32⟩
  | .hbm, ⟨1, _⟩ => ⟨S2x1000, .i32⟩
  | .hbm, ⟨2, _⟩ => ⟨S1000, .f32⟩
  | .hbm, ⟨3, _⟩ => ⟨S200000, .i32⟩
  | .hbm, ⟨4, _⟩ => ⟨S200000x1, .f32⟩
  | .hbm, ⟨5, _⟩ => ⟨S256x512, .f32⟩
  | .hbm, ⟨6, _⟩ => ⟨S256, .f32⟩
  | .hbm, ⟨7, _⟩ => ⟨S1x256, .f32⟩
  | .hbm, ⟨8, _⟩ => ⟨S1, .f32⟩
  | .hbm, ⟨9, _⟩ => ⟨S1x512, .f32⟩
  | .hbm, ⟨10, _⟩ => ⟨S1, .f32⟩
  | .hbm, ⟨11, _⟩ => ⟨S512x1, .f32⟩
  | .hbm, ⟨12, _⟩ => ⟨S200000x1, .f32⟩
  | .hbm, ⟨13, _⟩ => ⟨S1x1, .f32⟩
  | .hbm, ⟨14, _⟩ => ⟨S200000x1, .f32⟩
  | .hbm, ⟨15, _⟩ => ⟨S200000x1, .f32⟩
  | .hbm, ⟨16, _⟩ => ⟨S512x256, .f32⟩
  | .hbm, ⟨17, _⟩ => ⟨S200000x256, .f32⟩
  | .hbm, ⟨18, _⟩ => ⟨S1x256, .f32⟩
  | .hbm, ⟨19, _⟩ => ⟨S200000x256, .f32⟩
  | .hbm, ⟨20, _⟩ => ⟨S200000x256, .f32⟩
  | .hbm, ⟨21, _⟩ => ⟨S200000x256, .f32⟩
  | .hbm, ⟨22, _⟩ => ⟨S200000x256, .f32⟩
  | .hbm, ⟨23, _⟩ => ⟨S_, .f32⟩
  | .hbm, ⟨24, _⟩ => ⟨S200000x256, .f32⟩
  | .hbm, ⟨25, _⟩ => ⟨S200000x256, .f32⟩
  | .hbm, ⟨26, _⟩ => ⟨S_, .f32⟩
  | .hbm, ⟨27, _⟩ => ⟨S200000x256, .f32⟩
  | .hbm, ⟨28, _⟩ => ⟨S200000x256, .f32⟩
  | .hbm, ⟨29, _⟩ => ⟨S200000x256, .f32⟩
  | .hbm, ⟨30, _⟩ => ⟨S256x1, .f32⟩
  | .hbm, ⟨31, _⟩ => ⟨S200000x1, .f32⟩
  | .hbm, ⟨32, _⟩ => ⟨S1x1, .f32⟩
  | .hbm, ⟨33, _⟩ => ⟨S200000x1, .f32⟩
  | .hbm, ⟨34, _⟩ => ⟨S200000x1, .f32⟩
  | .hbm, ⟨35, _⟩ => ⟨S200000x1, .f32⟩
  | .hbm, ⟨36, _⟩ => ⟨S_, .f32⟩
  | .hbm, ⟨37, _⟩ => ⟨S2000x1, .f32⟩
  | .hbm, ⟨38, _⟩ => ⟨S200000x1, .i32⟩
  | .hbm, ⟨39, _⟩ => ⟨S2000x1, .f32⟩
  | _, _ => ⟨S200000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩

abbrev nD : Nat := 1
abbrev τ : Topo := Topo.v7x

variable {F : FTy → Type} [FloatOps F]

class Facts₀ : Prop where
  transposes_S1x512_S512x1_1_0 : S1x512.Transposes [1, 0] S512x1
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  transposes_S256x512_S512x256_1_0 : S256x512.Transposes [1, 0] S512x256
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  transposes_S1x256_S256x1_1_0 : S1x256.Transposes [1, 0] S256x1
  bcast_S_S2000x1 : S_.BroadcastsInDim S2000x1 (![] : Fin 0 → Fin S2000x1.rank)
  bcast_S200000_S200000x1_0 : S200000.BroadcastsInDim S200000x1 (![0] : Fin 1 → Fin S200000x1.rank)
  dot_S200000x512_S512x1_S200000x1_1_0_0_1_n_n_wf : DotDims.WF S200000x512 S512x1 S200000x1 [1] [0] [0] [1] [] []
  dot_S200000x512_S512x256_S200000x256_1_0_0_1_n_n_wf : DotDims.WF S200000x512 S512x256 S200000x256 [1] [0] [0] [1] [] []
  dot_S200000x256_S256x1_S200000x1_1_0_0_1_n_n_wf : DotDims.WF S200000x256 S256x1 S200000x1 [1] [0] [0] [1] [] []
  scatter_S2000x1_S200000x1_S200000x1_1_0_0_1_wf : ScatterDims.WF S2000x1 S200000x1 S200000x1 [1] [0] [0] 1

variable [Facts₀]

def dot_S200000x512_S512x1_S200000x1_1_0_0_1_n_n : DotDims S200000x512 S512x1 S200000x1 where
  lhsContracting := [1]
  rhsContracting := [0]
  lhsNonContracting := [0]
  rhsNonContracting := [1]
  lhsBatch := []
  rhsBatch := []
  wf := dot_S200000x512_S512x1_S200000x1_1_0_0_1_n_n_wf
def dot_S200000x512_S512x256_S200000x256_1_0_0_1_n_n : DotDims S200000x512 S512x256 S200000x256 where
  lhsContracting := [1]
  rhsContracting := [0]
  lhsNonContracting := [0]
  rhsNonContracting := [1]
  lhsBatch := []
  rhsBatch := []
  wf := dot_S200000x512_S512x256_S200000x256_1_0_0_1_n_n_wf
def dot_S200000x256_S256x1_S200000x1_1_0_0_1_n_n : DotDims S200000x256 S256x1 S200000x1 where
  lhsContracting := [1]
  rhsContracting := [0]
  lhsNonContracting := [0]
  rhsNonContracting := [1]
  lhsBatch := []
  rhsBatch := []
  wf := dot_S200000x256_S256x1_S200000x1_1_0_0_1_n_n_wf
def scatter_S2000x1_S200000x1_S200000x1_1_0_0_1 : ScatterDims S2000x1 S200000x1 S200000x1 where
  updateWindowDims := [1]
  insertedWindowDims := [0]
  scatterDimsToOperandDims := [0]
  indexVectorDim := 1
  wf := scatter_S2000x1_S200000x1_S200000x1_1_0_0_1_wf

class Facts : Prop extends Facts₀ where

variable [Facts]
-- ==== Proof.Spec.lean ====
/-
  The value of one row, as mathematics over the extended reals.

  For a feature matrix `h` of 200000 rows and 512 columns, a first layer `W1` (256 x 512) with bias `b1`, a second
  layer `W2` (1 x 256) with bias `b2`, and a gate layer `Ww` (1 x 512) with bias `bw`, row `r` is worth

      ( Σ_k silu( Σ_j h[r,j]·W1[k,j] + b1[k] ) · W2[0,k] + b2[0] )  ·  ( Σ_j h[r,j]·Ww[0,j] + bw[0] ),

  where `silu x = x · logistic x` and `logistic x = 1 / (1 + e^(-x))` with its limits at the two infinities.  Every sum is
  a finite sum in the extended reals, written in the order of the column index; nothing here needs the inputs to be
  finite, because both programs form exactly these sums of exactly these products.
-/
import Idealize.ShloMosaic.PureOps.Ideal
import Idealize.ShloMosaic.Lib.ValueIdx

noncomputable section

open scoped BigOperators

namespace Cert.GatedMlp

open Idealize.ShloMosaic Idealize.ShloMosaic.ValueIdx

/-- `silu x = x · logistic x` on the extended reals. -/
def silu (x : EReal) : EReal := x * Ideal.logistic x

variable (h : (⟨2, ![200000, 512]⟩ : Shape).Idx → EReal) (W1 : (⟨2, ![256, 512]⟩ : Shape).Idx → EReal)
  (b1 : (⟨1, ![256]⟩ : Shape).Idx → EReal) (W2 : (⟨2, ![1, 256]⟩ : Shape).Idx → EReal)
  (b2 : (⟨1, ![1]⟩ : Shape).Idx → EReal) (Ww : (⟨2, ![1, 512]⟩ : Shape).Idx → EReal)
  (bw : (⟨1, ![1]⟩ : Shape).Idx → EReal)

/-- The first layer before its activation: row `r` of `h` against row `k` of `W1`, plus the bias. -/
def pre (r : Fin 200000) (k : Fin 256) : EReal := (∑ j : Fin 512, h (ix2 r j) * W1 (ix2 k j)) + b1 (ix1 k)

/-- The second layer: the activated hidden row against `W2`'s one row, plus the bias. -/
def head (r : Fin 200000) : EReal :=
  (∑ k : Fin 256, silu (pre h W1 b1 r k) * W2 (ix2 (0 : Fin 1) k)) + b2 (ix1 (0 : Fin 1))

/-- The gate: row `r` of `h` against `Ww`'s one row, plus the bias. -/
def gate (r : Fin 200000) : EReal := (∑ j : Fin 512, h (ix2 r j) * Ww (ix2 (0 : Fin 1) j)) + bw (ix1 (0 : Fin 1))

/-- The gated column: entry `(r, 0)` is the second layer's value of row `r` times the row's gate. -/
def gated : (⟨2, ![200000, 1]⟩ : Shape).Idx → EReal :=
  fun i => head h W1 b1 W2 b2 (i 0) * gate h Ww bw (i 0)

end Cert.GatedMlp

end
-- ==== Proof.RefRow.lean ====
/-
  The reference, read row by row.

  The reference forms `h · Wwᵀ + bw`, `silu (h · W1ᵀ + b1) · W2ᵀ + b2` and their product with whole-array operations:
  a transpose of each weight matrix, a contraction over the 512 (or 256) columns, biases broadcast along the rows, and
  `silu` spelt as `x · (1 / (1 + e^(-x)))`.  Read at one entry `(r, 0)` each of these is the corresponding piece of the
  row's value: the contraction is the finite sum over the column index, the transposed weight at `(j, k)` is the
  weight at `(k, j)`, a broadcast bias is the bias, and `1 / (1 + e^(-x))` is the logistic function.
-/
import proofs.«164686_j3736621547805_1_alg».proof.Proof.Gen.ReferenceIdeal.Read
import proofs.«164686_j3736621547805_1_alg».proof.Proof.Spec
import Idealize.ShloMosaic.PureOps.IdealRules

noncomputable section

open scoped BigOperators

namespace Cert.GatedMlp.Ref

open Cert.ReferenceIdeal Cert.ReferenceIdeal.Read Idealize.ShloMosaic Idealize.ShloMosaic.ValueIdx

variable (x0 : (⟨S200000x512, .f32⟩ : BufTy).Contents (Elt Ideal)) (x5 : (⟨S256x512, .f32⟩ : BufTy).Contents (Elt Ideal))
  (x6 : (⟨S256, .f32⟩ : BufTy).Contents (Elt Ideal)) (x7 : (⟨S1x256, .f32⟩ : BufTy).Contents (Elt Ideal))
  (x8 : (⟨S1, .f32⟩ : BufTy).Contents (Elt Ideal)) (x9 : (⟨S1x512, .f32⟩ : BufTy).Contents (Elt Ideal))
  (x10 : (⟨S1, .f32⟩ : BufTy).Contents (Elt Ideal))

/-- The word of the float one denotes the real one. -/
theorem one_f32 : Ideal.ofBits .f32 0x3F800000#32 = 1 := IdealRules.sign_bit.ideal_onePat .f32

/-- The gate column at row `i 0`. -/
theorem gate_apply (i : S200000x1.Idx) : val_main_v4 (F := Ideal) x0 x9 x10 i = gate x0 x9 x10 (i 0) := by
  have el : ∀ k : Fin 512, lidx_main_v1 i k = ix2 (i 0) k := fun k =>
    funext fun a => by match a with | ⟨0, _⟩ => rfl | ⟨1, _⟩ => rfl
  have er : ∀ k : Fin 512, idx_main_v0 (ridx_main_v1 i k) = ix2 (0 : Fin 1) k := fun k =>
    funext fun a => by
      match a with
      | ⟨0, _⟩ => exact Fin.ext (by have := idx2_lt1 i; show (i 1).val = 0; omega)
      | ⟨1, _⟩ => rfl
  have eb : idx_main_v2 (idx_main_v3 i) = ix1 (0 : Fin 1) :=
    funext fun a => by match a with | ⟨0, _⟩ => rfl
  rw [val_main_v4_apply, val_main_v1_apply, val_main_v3_apply, val_main_v2_apply, eb]
  simp only [val_main_v0_apply, el, er]
  rfl

/-- The first layer before its activation, at `(i 0, i 1)`. -/
theorem pre_apply (i : S200000x256.Idx) : val_main_v9 (F := Ideal) x0 x5 x6 i = pre x0 x5 x6 (i 0) (i 1) := by
  have el : ∀ k : Fin 512, lidx_main_v6 i k = ix2 (i 0) k := fun k =>
    funext fun a => by match a with | ⟨0, _⟩ => rfl | ⟨1, _⟩ => rfl
  have er : ∀ k : Fin 512, idx_main_v5 (ridx_main_v6 i k) = ix2 (i 1) k := fun k =>
    funext fun a => by match a with | ⟨0, _⟩ => rfl | ⟨1, _⟩ => rfl
  have eb : idx_main_v7 (idx_main_v8 i) = ix1 (i 1) :=
    funext fun a => by match a with | ⟨0, _⟩ => rfl
  rw [val_main_v9_apply, val_main_v6_apply, val_main_v8_apply, val_main_v7_apply, eb]
  simp only [val_main_v5_apply, el, er]
  rfl

/-- The activated hidden value: the reference's `x · (1 / (1 + e^(-x)))` is `silu x`. -/
theorem hidden_apply (i : S200000x256.Idx) :
    val_main_v10 (F := Ideal) x0 x5 x6 i = silu (pre x0 x5 x6 (i 0) (i 1)) := by
  rw [val_main_v10_apply, val_main_call0_v5_apply, val_main_call0_v4_apply, val_main_call0_cst_0_apply,
    val_main_call0_v3_apply, val_main_call0_v2_apply, val_main_call0_cst_apply, val_main_call0_v1_apply,
    val_main_call0_v0_apply, pre_apply]
  simp only [Ideal.ofBits_def, one_f32, Ideal.mulf_def, Ideal.hostDivf_def, Ideal.addf_def, Ideal.hostUnary_exp_def,
    Ideal.hostNegf_def, Ideal.negf_def]
  rfl

/-- The second layer's column at row `i 0`. -/
theorem head_apply (i : S200000x1.Idx) :
    val_main_v15 (F := Ideal) x0 x5 x6 x7 x8 i = head x0 x5 x6 x7 x8 (i 0) := by
  have er : ∀ k : Fin 256, idx_main_v11 (ridx_main_v12 i k) = ix2 (0 : Fin 1) k := fun k =>
    funext fun a => by
      match a with
      | ⟨0, _⟩ => exact Fin.ext (by have := idx2_lt1 i; show (i 1).val = 0; omega)
      | ⟨1, _⟩ => rfl
  have eb : idx_main_v13 (idx_main_v14 i) = ix1 (0 : Fin 1) :=
    funext fun a => by match a with | ⟨0, _⟩ => rfl
  rw [val_main_v15_apply, val_main_v12_apply, val_main_v14_apply, val_main_v13_apply, eb]
  simp only [val_main_v11_apply, hidden_apply, er]
  rfl

/-- The reference's product column is the gated column of its arguments. -/
theorem product_eq : val_main_v16 (F := Ideal) x0 x5 x6 x7 x8 x9 x10 = gated x0 x5 x6 x7 x8 x9 x10 := by
  funext i
  rw [val_main_v16_apply, head_apply, gate_apply]
  rfl

end Cert.GatedMlp.Ref

end
-- ==== Proof.KernelRow.lean ====
/-
  One row of one block, as the kernel's body computes it.

  At a grid point the body holds a block of 2000 rows of `h`, the transposed first layer (512 x 256), the first bias as a
  row (1 x 256), the transposed second layer (256 x 1), the second bias (1 x 1), the transposed gate layer (512 x 1) and
  the gate bias (1 x 1).  It multiplies the block into the transposed first layer, adds the bias row to every row,
  applies `x · logistic x`, multiplies into the transposed second layer and adds its bias; it multiplies the block into
  the transposed gate layer and adds the gate bias; and it stores the product of the two columns.  A matrix product into
  a zero accumulator, read at one entry, is the finite sum over the contracted column of the products of the entries;
  a change of float format is the identity on extended reals.  So entry `(p, 0)` of what the body stores is the value
  of row `p` of the block, written with the transposed weights.
-/
import proofs.«164686_j3736621547805_1_alg».proof.Proof.Gen.KernelIdeal.Skeleton
import proofs.«164686_j3736621547805_1_alg».proof.Proof.Spec
import Idealize.ShloMosaic.Lib.Pipeline.Value
import Idealize.ShloMosaic.Lib.ValueIdx
import Idealize.ShloMosaic.PureOps.Ideal.Laws

noncomputable section

open scoped BigOperators

namespace Cert.GatedMlp.Body

open Cert.KernelIdeal Cert.KernelIdeal.Gen Idealize.ShloMosaic Idealize.ShloMosaic.ValueIdx

/-- A matrix product of an `M x K` by a `K x N` matrix into a zero accumulator, contracting the one shared axis, read at
    entry `(p, q)`: the sum over `k` of the left matrix at `(p, k)` times the right matrix at `(k, q)`.  The hypotheses
    say which coordinates the dimension numbers read: the left operand's row is the result's row and its column the
    contraction's coordinate, the right operand's row is the contraction's coordinate and its column the result's. -/
theorem matmul_zero_apply {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (q : Fin N) :
    FloatOps.matmul D none l r (constant ⟨2, ![M, N]⟩ .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- The block times the transposed first layer, at `(p, k)`. -/
theorem first_layer_apply (l : FVec Ideal S2000x512 .bf16) (r : FVec Ideal S512x256 .bf16) (p : Fin 2000) (k : Fin 256) :
    FloatOps.matmul dot_S2000x512_S512x256_S2000x256_1_0_0_1_n_n none l r (constant S2000x256 .f32 0x00000000#32) (ix2 p k)
      = ∑ j : Fin 512, l (ix2 p j) * r (ix2 j k) :=
  matmul_zero_apply dot_S2000x512_S512x256_S2000x256_1_0_0_1_n_n rfl rfl
    (fun i q => by
      unfold DotDims.lhsIdx
      rw [dif_neg (show ¬(0 : Fin S2000x512.rank) ∈ dot_S2000x512_S512x256_S2000x256_1_0_0_1_n_n.lhsBatch by decide),
        dif_pos (show (0 : Fin S2000x512.rank) ∈ dot_S2000x512_S512x256_S2000x256_1_0_0_1_n_n.lhsNonContracting by decide)]
      rfl)
    (fun i q => dot_S2000x512_S512x256_S2000x256_1_0_0_1_n_n.lhsIdx_val_of_single rfl i q)
    (fun i q => dot_S2000x512_S512x256_S2000x256_1_0_0_1_n_n.rhsIdx_val_of_single rfl i q)
    (fun i q => by
      unfold DotDims.rhsIdx
      rw [dif_neg (show ¬(1 : Fin S512x256.rank) ∈ dot_S2000x512_S512x256_S2000x256_1_0_0_1_n_n.rhsBatch by decide),
        dif_pos (show (1 : Fin S512x256.rank) ∈ dot_S2000x512_S512x256_S2000x256_1_0_0_1_n_n.rhsNonContracting by decide)]
      rfl)
    l r p k

/-- The activated hidden block times the transposed second layer, at `(p, 0)`. -/
theorem second_layer_apply (l : FVec Ideal S2000x256 .bf16) (r : FVec Ideal S256x1 .bf16) (p : Fin 2000) (q : Fin 1) :
    FloatOps.matmul dot_S2000x256_S256x1_S2000x1_1_0_0_1_n_n none l r (constant S2000x1 .f32 0x00000000#32) (ix2 p q)
      = ∑ k : Fin 256, l (ix2 p k) * r (ix2 k q) :=
  matmul_zero_apply dot_S2000x256_S256x1_S2000x1_1_0_0_1_n_n rfl rfl
    (fun i q => by
      unfold DotDims.lhsIdx
      rw [dif_neg (show ¬(0 : Fin S2000x256.rank) ∈ dot_S2000x256_S256x1_S2000x1_1_0_0_1_n_n.lhsBatch by decide),
        dif_pos (show (0 : Fin S2000x256.rank) ∈ dot_S2000x256_S256x1_S2000x1_1_0_0_1_n_n.lhsNonContracting by decide)]
      rfl)
    (fun i q => dot_S2000x256_S256x1_S2000x1_1_0_0_1_n_n.lhsIdx_val_of_single rfl i q)
    (fun i q => dot_S2000x256_S256x1_S2000x1_1_0_0_1_n_n.rhsIdx_val_of_single rfl i q)
    (fun i q => by
      unfold DotDims.rhsIdx
      rw [dif_neg (show ¬(1 : Fin S256x1.rank) ∈ dot_S2000x256_S256x1_S2000x1_1_0_0_1_n_n.rhsBatch by decide),
        dif_pos (show (1 : Fin S256x1.rank) ∈ dot_S2000x256_S256x1_S2000x1_1_0_0_1_n_n.rhsNonContracting by decide)]
      rfl)
    l r p q

/-- The block times the transposed gate layer, at `(p, 0)`. -/
theorem gate_layer_apply (l : FVec Ideal S2000x512 .bf16) (r : FVec Ideal S512x1 .bf16) (p : Fin 2000) (q : Fin 1) :
    FloatOps.matmul dot_S2000x512_S512x1_S2000x1_1_0_0_1_n_n none l r (constant S2000x1 .f32 0x00000000#32) (ix2 p q)
      = ∑ j : Fin 512, l (ix2 p j) * r (ix2 j q) :=
  matmul_zero_apply dot_S2000x512_S512x1_S2000x1_1_0_0_1_n_n rfl rfl
    (fun i q => by
      unfold DotDims.lhsIdx
      rw [dif_neg (show ¬(0 : Fin S2000x512.rank) ∈ dot_S2000x512_S512x1_S2000x1_1_0_0_1_n_n.lhsBatch by decide),
        dif_pos (show (0 : Fin S2000x512.rank) ∈ dot_S2000x512_S512x1_S2000x1_1_0_0_1_n_n.lhsNonContracting by decide)]
      rfl)
    (fun i q => dot_S2000x512_S512x1_S2000x1_1_0_0_1_n_n.lhsIdx_val_of_single rfl i q)
    (fun i q => dot_S2000x512_S512x1_S2000x1_1_0_0_1_n_n.rhsIdx_val_of_single rfl i q)
    (fun i q => by
      unfold DotDims.rhsIdx
      rw [dif_neg (show ¬(1 : Fin S512x1.rank) ∈ dot_S2000x512_S512x1_S2000x1_1_0_0_1_n_n.rhsBatch by decide),
        dif_pos (show (1 : Fin S512x1.rank) ∈ dot_S2000x512_S512x1_S2000x1_1_0_0_1_n_n.rhsNonContracting by decide)]
      rfl)
    l r p q

/-- A bias row `1 x 256` broadcast to `2000 x 256` reads, at `(p, k)`, the bias at `(0, k)`. -/
theorem bias_row_apply (x : FVec Ideal S1x256 .f32) (p : Fin 2000) (k : Fin 256) :
    broadcastTo S2000x256 x broadcasts_S1x256_S2000x256 (ix2 p k) = x (ix2 (0 : Fin 1) k) :=
  broadcastTo_apply x broadcasts_S1x256_S2000x256 (ix2 p k) (ix2 (0 : Fin 1) k) (fun a => by
    match a with
    | ⟨0, _⟩ => show (0 : Nat) = if (1 : Nat) = 1 then 0 else _; rw [if_pos rfl]
    | ⟨1, _⟩ => show k.val = if (256 : Nat) = 1 then 0 else k.val; rw [if_neg (by decide)])

/-- A `1 x 1` bias broadcast to a column `2000 x 1` reads the bias everywhere. -/
theorem bias_cell_apply (x : FVec Ideal S1x1 .f32) (p : Fin 2000) (q : Fin 1) :
    broadcastTo S2000x1 x broadcasts_S1x1_S2000x1 (ix2 p q) = x (ix2 (0 : Fin 1) (0 : Fin 1)) :=
  broadcastTo_apply x broadcasts_S1x1_S2000x1 (ix2 p q) (ix2 (0 : Fin 1) (0 : Fin 1)) (fun a => by
    match a with
    | ⟨0, _⟩ => show (0 : Nat) = if (1 : Nat) = 1 then 0 else _; rw [if_pos rfl]
    | ⟨1, _⟩ => show (0 : Nat) = if (1 : Nat) = 1 then 0 else _; rw [if_pos rfl])

/-- The hidden block before its activation, at `(p, k)`: row `p` of the block against column `k` of the transposed
    first layer, plus the bias row's entry `k`. -/
theorem hidden_pre_apply (x0 : FVec Ideal S2000x512 .f32) (x1 : FVec Ideal S512x256 .bf16) (x2 : FVec Ideal S1x256 .f32)
    (p : Fin 2000) (k : Fin 256) :
    addf (FloatOps.matmul dot_S2000x512_S512x256_S2000x256_1_0_0_1_n_n none (truncf .bf16 x0 bitsLt_bf16_f32) x1
        (constant S2000x256 .f32 0x00000000#32)) (broadcastTo S2000x256 x2 broadcasts_S1x256_S2000x256) (ix2 p k)
      = (∑ j : Fin 512, x0 (ix2 p j) * x1 (ix2 j k)) + x2 (ix2 (0 : Fin 1) k) := by
  rw [addf_apply, first_layer_apply, bias_row_apply]
  rfl

/-- The activated hidden block `v · logistic v` against the transposed second layer, at `(p, q)`. -/
theorem hidden_layer_apply (v : FVec Ideal S2000x256 .f32) (w : FVec Ideal S256x1 .bf16) (p : Fin 2000) (q : Fin 1) :
    FloatOps.matmul dot_S2000x256_S256x1_S2000x1_1_0_0_1_n_n none (truncf .bf16 (mulf v (logistic v)) bitsLt_bf16_f32) w
        (constant S2000x1 .f32 0x00000000#32) (ix2 p q)
      = ∑ k : Fin 256, silu (v (ix2 p k)) * w (ix2 k q) := by
  rw [second_layer_apply]
  rfl

variable (h : (⟨2, ![200000, 512]⟩ : Shape).Idx → EReal) (W1 : (⟨2, ![256, 512]⟩ : Shape).Idx → EReal)
  (b1 : (⟨1, ![256]⟩ : Shape).Idx → EReal) (W2 : (⟨2, ![1, 256]⟩ : Shape).Idx → EReal)
  (b2 : (⟨1, ![1]⟩ : Shape).Idx → EReal) (Ww : (⟨2, ![1, 512]⟩ : Shape).Idx → EReal)
  (bw : (⟨1, ![1]⟩ : Shape).Idx → EReal)

/-- WHAT THE BODY STORES at `(p, 0)`, when row `p` of its block of `h` is row `r` of `h` and its weight blocks are the
    transposed weights and the biases: the value of row `r`. -/
theorem payload_row (x0 : Vec Ideal S2000x512 .f32) (x1 : Vec Ideal S512x256 .bf16) (x2 : Vec Ideal S1x256 .f32)
    (x3 : Vec Ideal S256x1 .bf16) (x4 : Vec Ideal S1x1 .f32) (x5 : Vec Ideal S512x1 .bf16) (x6 : Vec Ideal S1x1 .f32)
    (p : Fin 2000) (r : Fin 200000)
    (e0 : ∀ j : Fin 512, x0 (ix2 p j) = h (ix2 r j))
    (e1 : ∀ (j : Fin 512) (k : Fin 256), x1 (ix2 j k) = W1 (ix2 k j))
    (e2 : ∀ k : Fin 256, x2 (ix2 (0 : Fin 1) k) = b1 (ix1 k))
    (e3 : ∀ k : Fin 256, x3 (ix2 k (0 : Fin 1)) = W2 (ix2 (0 : Fin 1) k))
    (e4 : x4 (ix2 (0 : Fin 1) (0 : Fin 1)) = b2 (ix1 (0 : Fin 1)))
    (e5 : ∀ j : Fin 512, x5 (ix2 j (0 : Fin 1)) = Ww (ix2 (0 : Fin 1) j))
    (e6 : x6 (ix2 (0 : Fin 1) (0 : Fin 1)) = bw (ix1 (0 : Fin 1))) :
    k0_pay1 (F := Ideal) x0 x1 x2 x3 x4 x5 x6 (ix2 p (0 : Fin 1)) = head h W1 b1 W2 b2 r * gate h Ww bw r := by
  unfold k0_pay1
  simp only [shapeCast_self, matmul]
  rw [mulf_apply, addf_apply, addf_apply, hidden_layer_apply, gate_layer_apply, bias_cell_apply, bias_cell_apply, e4, e6]
  unfold head gate pre
  refine congrArg₂ (· * ·) (congrArg₂ (· + ·) (Finset.sum_congr rfl fun k _ => ?_) rfl)
    (congrArg₂ (· + ·) (Finset.sum_congr rfl fun j _ => ?_) rfl)
  · rw [hidden_pre_apply, e3, e2]
    simp only [e0, e1]
  · show x0 (ix2 p j) * x5 (ix2 j (0 : Fin 1)) = _
    rw [e0, e5]

end Cert.GatedMlp.Body

end
-- ==== Proof.KernelBlocks.lean ====
/-
  From blocks to the whole column, and on to the segment sums.

  The grid has 100 points; point `t` is handed rows `2000·t … 2000·t + 1999` of `h` and, at every point, the whole of
  each weight array.  The weight arrays the region finds were made by the host lines before it: each weight matrix
  transposed (and re-formatted, which is the identity on extended reals), each bias re-shaped to a row.  So row `p` of
  point `t`'s block is row `2000·t + p` of `h`, the transposed first layer at `(j, k)` is `W1` at `(k, j)`, and so on, and
  what point `t` writes back is rows `2000·t … 2000·t + 1999` of the gated column of the arguments.  The 100 blocks tile
  the 200000 rows, so the array after the region is the gated column.  The host lines after the region scatter-add
  that column into 2000 zeroed segments by the segment ids: the same lines, applied to the same column, as the
  reference's.
-/
import proofs.«164686_j3736621547805_1_alg».proof.Proof.Gen.KernelIdeal.Frame
import proofs.«164686_j3736621547805_1_alg».proof.Proof.KernelRow
import Idealize.ShloMosaic.Lib.Pipeline.Value
import Idealize.ShloMosaic.Lib.StableHlo.Run
import Idealize.ShloMosaic.Lib.Tactic

noncomputable section

open scoped BigOperators

namespace Cert.GatedMlp.Kernel

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays the region finds -/

/-- The transposed first layer, as the host lines before the region leave it. -/
theorem V_w1t (c : Dev nD) : (V m c main_v1 : S512x256.Idx → EReal)
    = truncf (F := Ideal) .bf16 (transpose S512x256 [1, 0] (m ((c : Thread nD τ).loc main_arg5)) transposes_S256x512_S512x256_1_0) bitsLt_bf16_f32 := by
  show StableHlo.after hostOps0 (fun b => m (c, b)) (Proc.devRef .tc main_v1) = _
  after_results <;> rfl

/-- The first bias as a row. -/
theorem V_b1row (c : Dev nD) : (V m c main_v6 : S1x256.Idx → EReal)
    = shapeCast S1x256 (m ((c : Thread nD τ).loc main_arg6)) shapeCasts_S256_S1x256 := by
  show StableHlo.after hostOps0 (fun b => m (c, b)) (Proc.devRef .tc main_v6) = _
  after_results <;> rfl

/-- The transposed second layer. -/
theorem V_w2t (c : Dev nD) : (V m c main_v3 : S256x1.Idx → EReal)
    = truncf (F := Ideal) .bf16 (transpose S256x1 [1, 0] (m ((c : Thread nD τ).loc main_arg7)) transposes_S1x256_S256x1_1_0) bitsLt_bf16_f32 := by
  show StableHlo.after hostOps0 (fun b => m (c, b)) (Proc.devRef .tc main_v3) = _
  after_results <;> rfl

/-- The second bias as a `1 x 1` array. -/
theorem V_b2cell (c : Dev nD) : (V m c main_v7 : S1x1.Idx → EReal)
    = shapeCast S1x1 (m ((c : Thread nD τ).loc main_arg8)) shapeCasts_S1_S1x1 := by
  show StableHlo.after hostOps0 (fun b => m (c, b)) (Proc.devRef .tc main_v7) = _
  after_results <;> rfl

/-- The transposed gate layer. -/
theorem V_wwt (c : Dev nD) : (V m c main_v5 : S512x1.Idx → EReal)
    = truncf (F := Ideal) .bf16 (transpose S512x1 [1, 0] (m ((c : Thread nD τ).loc main_arg9)) transposes_S1x512_S512x1_1_0) bitsLt_bf16_f32 := by
  show StableHlo.after hostOps0 (fun b => m (c, b)) (Proc.devRef .tc main_v5) = _
  after_results <;> rfl

/-- The gate bias as a `1 x 1` array. -/
theorem V_bwcell (c : Dev nD) : (V m c main_v8 : S1x1.Idx → EReal)
    = shapeCast S1x1 (m ((c : Thread nD τ).loc main_arg10)) shapeCasts_S1_S1x1 := by
  show StableHlo.after hostOps0 (fun b => m (c, b)) (Proc.devRef .tc main_v8) = _
  after_results <;> rfl

/-! ## Where each window's block sits -/

theorem hz : (![0, 0] : Fin 2 → Nat) = fun _ => 0 := funext fun a => by fin_cases a <;> rfl

/-- The printed index maps, decided over the grid: the block of `h` and the output block of point `t` are row-block `t`;
    every weight block is the whole of its array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `p` of point `t`'s block of `h` is row `2000·t + p` of `h`. -/
theorem h_block_apply (c : Dev nD) (t : Fin cfg0.N) (p : Fin 2000) (j : Fin 512) (r : Fin 200000)
    (hr : r.val = t.val * 2000 + p.val) :
    (iblk m c 0 t : Vec Ideal S2000x512 .f32) (ix2 p j) = m ((c : Thread nD τ).loc main_arg0) (ix2 r j) := by
  obtain ⟨e0, e1, -⟩ := idx_facts t
  show V m c main_arg0 (((cfg0.win 0).blk t).view.emb (ix2 p j)) = _
  rw [V_main_arg0]
  refine congrArg (m ((c : Thread nD τ).loc main_arg0) : S200000x512.Idx → EReal) (funext fun a => Fin.ext ?_)
  match a with
  | ⟨0, _⟩ => show win0_0.index t (0 : Fin 2) * 2000 + 1 * p.val = r.val; omega
  | ⟨1, _⟩ => show win0_0.index t (1 : Fin 2) * 512 + 1 * j.val = j.val; omega

/-- The transposed first layer's block at `(j, k)` is `W1` at `(k, j)`. -/
theorem w1t_block_apply (c : Dev nD) (t : Fin cfg0.N) (j : Fin 512) (k : Fin 256) :
    (iblk m c 1 t : Vec Ideal S512x256 .bf16) (ix2 j k) = m ((c : Thread nD τ).loc main_arg5) (ix2 k j) := by
  obtain ⟨-, -, e0, e1, -⟩ := idx_facts t
  show V m c main_v1 (((cfg0.win 1).blk t).view.emb (ix2 j k)) = _
  have hemb : ((cfg0.win 1).blk t).view.emb (ix2 j k) = (ix2 j k : S512x256.Idx) := funext fun a => Fin.ext (by
    match a with
    | ⟨0, _⟩ => show win0_1.index t (0 : Fin 2) * 512 + 1 * j.val = j.val; omega
    | ⟨1, _⟩ => show win0_1.index t (1 : Fin 2) * 256 + 1 * k.val = k.val; omega)
  rw [hemb, V_w1t]
  exact transpose_apply [1, 0] _ transposes_S256x512_S512x256_1_0 (ix2 j k) (ix2 k j)
    (fun b => match b with | ⟨0, _⟩ => rfl | ⟨1, _⟩ => rfl)

/-- The bias row's block at `(0, k)` is `b1` at `k`. -/
theorem b1_block_apply (c : Dev nD) (t : Fin cfg0.N) (k : Fin 256) :
    (iblk m c 2 t : Vec Ideal S1x256 .f32) (ix2 (0 : Fin 1) k) = m ((c : Thread nD τ).loc main_arg6) (ix1 k) := by
  obtain ⟨-, -, -, -, e0, e1, -⟩ := idx_facts t
  show V m c main_v6 (((cfg0.win 2).blk t).view.emb (ix2 (0 : Fin 1) k)) = _
  have hemb : ((cfg0.win 2).blk t).view.emb (ix2 (0 : Fin 1) k) = (ix2 (0 : Fin 1) k : S1x256.Idx) := funext fun a => Fin.ext (by
    match a with
    | ⟨0, _⟩ => show win0_2.index t (0 : Fin 2) * 1 + 1 * 0 = 0; omega
    | ⟨1, _⟩ => show win0_2.index t (1 : Fin 2) * 256 + 1 * k.val = k.val; omega)
  rw [hemb, V_b1row]
  exact shapeCast_apply _ shapeCasts_S256_S1x256 (ix2 (0 : Fin 1) k) (ix1 k) (by
    rw [Shape.rowMajor_val_one, Shape.rowMajor_val_two]
    show k.val = 0 * 256 + k.val
    omega)

/-- The transposed second layer's block at `(k, 0)` is `W2` at `(0, k)`. -/
theorem w2t_block_apply (c : Dev nD) (t : Fin cfg0.N) (k : Fin 256) :
    (iblk m c 3 t : Vec Ideal S256x1 .bf16) (ix2 k (0 : Fin 1)) = m ((c : Thread nD τ).loc main_arg7) (ix2 (0 : Fin 1) k) := by
  obtain ⟨-, -, -, -, -, -, e0, e1, -⟩ := idx_facts t
  show V m c main_v3 (((cfg0.win 3).blk t).view.emb (ix2 k (0 : Fin 1))) = _
  have hemb : ((cfg0.win 3).blk t).view.emb (ix2 k (0 : Fin 1)) = (ix2 k (0 : Fin 1) : S256x1.Idx) := funext fun a => Fin.ext (by
    match a with
    | ⟨0, _⟩ => show win0_3.index t (0 : Fin 2) * 256 + 1 * k.val = k.val; omega
    | ⟨1, _⟩ => show win0_3.index t (1 : Fin 2) * 1 + 1 * 0 = 0; omega)
  rw [hemb, V_w2t]
  exact transpose_apply [1, 0] _ transposes_S1x256_S256x1_1_0 (ix2 k (0 : Fin 1)) (ix2 (0 : Fin 1) k)
    (fun b => match b with | ⟨0, _⟩ => rfl | ⟨1, _⟩ => rfl)

/-- The second bias's `1 x 1` block is `b2`'s one entry. -/
theorem b2_block_apply (c : Dev nD) (t : Fin cfg0.N) :
    (iblk m c 4 t : Vec Ideal S1x1 .f32) (ix2 (0 : Fin 1) (0 : Fin 1)) = m ((c : Thread nD τ).loc main_arg8) (ix1 (0 : Fin 1)) := by
  obtain ⟨-, -, -, -, -, -, -, -, e0, e1, -⟩ := idx_facts t
  show V m c main_v7 (((cfg0.win 4).blk t).view.emb (ix2 (0 : Fin 1) (0 : Fin 1))) = _
  have hemb : ((cfg0.win 4).blk t).view.emb (ix2 (0 : Fin 1) (0 : Fin 1)) = (ix2 (0 : Fin 1) (0 : Fin 1) : S1x1.Idx) := funext fun a => Fin.ext (by
    match a with
    | ⟨0, _⟩ => show win0_4.index t (0 : Fin 2) * 1 + 1 * 0 = 0; omega
    | ⟨1, _⟩ => show win0_4.index t (1 : Fin 2) * 1 + 1 * 0 = 0; omega)
  rw [hemb, V_b2cell]
  exact shapeCast_apply _ shapeCasts_S1_S1x1 (ix2 (0 : Fin 1) (0 : Fin 1)) (ix1 (0 : Fin 1)) (by
    rw [Shape.rowMajor_val_one, Shape.rowMajor_val_two]
    show 0 = 0 * 1 + 0
    omega)

/-- The transposed gate layer's block at `(j, 0)` is `Ww` at `(0, j)`. -/
theorem wwt_block_apply (c : Dev nD) (t : Fin cfg0.N) (j : Fin 512) :
    (iblk m c 5 t : Vec Ideal S512x1 .bf16) (ix2 j (0 : Fin 1)) = m ((c : Thread nD τ).loc main_arg9) (ix2 (0 : Fin 1) j) := by
  obtain ⟨-, -, -, -, -, -, -, -, -, -, e0, e1, -⟩ := idx_facts t
  show V m c main_v5 (((cfg0.win 5).blk t).view.emb (ix2 j (0 : Fin 1))) = _
  have hemb : ((cfg0.win 5).blk t).view.emb (ix2 j (0 : Fin 1)) = (ix2 j (0 : Fin 1) : S512x1.Idx) := funext fun a => Fin.ext (by
    match a with
    | ⟨0, _⟩ => show win0_5.index t (0 : Fin 2) * 512 + 1 * j.val = j.val; omega
    | ⟨1, _⟩ => show win0_5.index t (1 : Fin 2) * 1 + 1 * 0 = 0; omega)
  rw [hemb, V_wwt]
  exact transpose_apply [1, 0] _ transposes_S1x512_S512x1_1_0 (ix2 j (0 : Fin 1)) (ix2 (0 : Fin 1) j)
    (fun b => match b with | ⟨0, _⟩ => rfl | ⟨1, _⟩ => rfl)

/-- The gate bias's `1 x 1` block is `bw`'s one entry. -/
theorem bw_block_apply (c : Dev nD) (t : Fin cfg0.N) :
    (iblk m c 6 t : Vec Ideal S1x1 .f32) (ix2 (0 : Fin 1) (0 : Fin 1)) = m ((c : Thread nD τ).loc main_arg10) (ix1 (0 : Fin 1)) := by
  obtain ⟨-, -, -, -, -, -, -, -, -, -, -, -, e0, e1, -⟩ := idx_facts t
  show V m c main_v8 (((cfg0.win 6).blk t).view.emb (ix2 (0 : Fin 1) (0 : Fin 1))) = _
  have hemb : ((cfg0.win 6).blk t).view.emb (ix2 (0 : Fin 1) (0 : Fin 1)) = (ix2 (0 : Fin 1) (0 : Fin 1) : S1x1.Idx) := funext fun a => Fin.ext (by
    match a with
    | ⟨0, _⟩ => show win0_6.index t (0 : Fin 2) * 1 + 1 * 0 = 0; omega
    | ⟨1, _⟩ => show win0_6.index t (1 : Fin 2) * 1 + 1 * 0 = 0; omega)
  rw [hemb, V_bwcell]
  exact shapeCast_apply _ shapeCasts_S1_S1x1 (ix2 (0 : Fin 1) (0 : Fin 1)) (ix1 (0 : Fin 1)) (by
    rw [Shape.rowMajor_val_one, Shape.rowMajor_val_two]
    show 0 = 0 * 1 + 0
    omega)

/-! ## What a point writes back, and the array after the region -/

/-- The gated column of the arguments, as contents of the region's output array. -/
def column (c : Dev nD) : Buf (Elt Ideal) ((c : Thread nD τ).loc main_v9) :=
  gated (m ((c : Thread nD τ).loc main_arg0)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10))

/-- WHAT POINT `t` WRITES BACK is rows `2000·t … 2000·t + 1999` of the gated column. -/
theorem flushed_eq (c : Dev nD) (t : Fin cfg0.N) :
    (dats m 0 c).flushed 7 t = ((cfg0.win 7).blk t).view.read (Elt Ideal) (column m c) := by
  show (cfg0.win 7).cut (grid0.coords t) ((dats m 0 c).after 7 t) = _
  rw [after0_7]
  unfold out0_7
  rw [View.canon_unit_zero hz]
  simp only [View.ld_unit_zero (S := S2000x512) hz, View.ld_unit_zero (S := S512x256) hz, View.ld_unit_zero (S := S1x256) hz,
    View.ld_unit_zero (S := S256x1) hz, View.ld_unit_zero (S := S1x1) hz, View.ld_unit_zero (S := S512x1) hz]
  funext y
  obtain ⟨p, q, rfl⟩ : ∃ (p : Fin 2000) (q : Fin 1), y = ix2 p q := ⟨y 0, y 1, eq_ix2 y⟩
  obtain rfl : q = 0 := Subsingleton.elim _ _
  have hp : p.val < 2000 := p.isLt
  have ht : t.val < 100 := by have h1 := t.isLt; have hN : cfg0.N = 100 := N_0; omega
  obtain ⟨-, -, -, -, -, -, -, -, -, -, -, -, -, -, e0, e1⟩ := idx_facts t
  show k0_pay1 (iblk m c 0 t) (iblk m c 1 t) (iblk m c 2 t) (iblk m c 3 t) (iblk m c 4 t) (iblk m c 5 t) (iblk m c 6 t)
      (ix2 p (0 : Fin 1)) = column m c (((cfg0.win 7).blk t).view.emb (ix2 p (0 : Fin 1)))
  refine (Body.payload_row (m ((c : Thread nD τ).loc main_arg0)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10))
      (iblk m c 0 t) (iblk m c 1 t) (iblk m c 2 t) (iblk m c 3 t) (iblk m c 4 t) (iblk m c 5 t) (iblk m c 6 t) p
      ⟨t.val * 2000 + p.val, by omega⟩
      (fun j => h_block_apply m c t p j _ rfl) (fun j k => w1t_block_apply m c t j k) (fun k => b1_block_apply m c t k)
      (fun k => w2t_block_apply m c t k) (b2_block_apply m c t) (fun j => wwt_block_apply m c t j)
      (bw_block_apply m c t)).trans ?_
  have hrow : (((cfg0.win 7).blk t).view.emb (ix2 p (0 : Fin 1)) : S200000x1.Idx) 0
      = (⟨t.val * 2000 + p.val, by omega⟩ : Fin 200000) :=
    Fin.ext (show win0_7.index t (0 : Fin 2) * 2000 + 1 * p.val = t.val * 2000 + p.val by omega)
  unfold column gated
  show _ = head _ _ _ _ _ ((((cfg0.win 7).blk t).view.emb (ix2 p (0 : Fin 1)) : S200000x1.Idx) 0)
    * gate _ _ _ ((((cfg0.win 7).blk t).view.emb (ix2 p (0 : Fin 1)) : S200000x1.Idx) 0)
  rw [hrow]

/-- An index of the column is in point `t`'s block iff each coordinate is in the block's range on its axis. -/
theorem mem_blk (t : Fin cfg0.N) (i : S200000x1.Idx) :
    i ∈ ((cfg0.win 7).blk t).view.set ↔ ∀ a : Fin 2, win0_7.index t a * S2000x1.size a ≤ (i a).val
      ∧ (i a).val < win0_7.index t a * S2000x1.size a + S2000x1.size a := by
  show i ∈ ((View.whole main_v9).slice (win0_7.rect t)).set ↔ _
  rw [View.set_slice_whole, Rect.mem_set_unit]
  exact Iff.rfl

/-- Row `r` of the column is written back by point `r / 2000`: the 100 blocks of 2000 rows tile the 200000 rows. -/
theorem covered (i : S200000x1.Idx) :
    ∃ t : Fin cfg0.N, (cfg0.win 7).flush t = true ∧ i ∈ ((cfg0.win 7).blk t).view.set := by
  have hi0 : (i 0).val < 200000 := idx2_lt0 i
  have hi1 : (i 1).val < 1 := idx2_lt1 i
  have hN : cfg0.N = 100 := N_0
  obtain ⟨t, ht⟩ : ∃ t : Fin cfg0.N, t.val = (i 0).val / 2000 := ⟨⟨(i 0).val / 2000, by rw [hN]; omega⟩, rfl⟩
  obtain ⟨-, -, -, -, -, -, -, -, -, -, -, -, -, -, e0, e1⟩ := idx_facts t
  refine ⟨t, flush0_7 t, ?_⟩
  rw [mem_blk]
  intro a
  match a with
  | ⟨0, _⟩ =>
    show win0_7.index t (0 : Fin 2) * 2000 ≤ (i 0).val ∧ (i 0).val < win0_7.index t (0 : Fin 2) * 2000 + 2000
    omega
  | ⟨1, _⟩ =>
    show win0_7.index t (1 : Fin 2) * 1 ≤ (i 1).val ∧ (i 1).val < win0_7.index t (1 : Fin 2) * 1 + 1
    omega

/-- THE ARRAY after the region is the gated column of the arguments. -/
theorem final (c : Dev nD) : (dats m 0 c).arrAt 7 cfg0.N = column m c :=
  (dats m 0 c).arrAt_eq_of_cover 7 (column m c) (fun t _ => flushed_eq m c t) covered

/-! ## The host lines after the region -/

/-- The lines after the region as ONE function of the segment ids and a column: the column's entries scatter-added,
    each by its row's segment id, into 2000 zeroed segments. -/
def segmentSums (ids : (⟨S200000, .i32⟩ : BufTy).Contents (Elt Ideal)) (u : FVec Ideal S200000x1 .f32) :
    FVec Ideal S2000x1 .f32 :=
  Host.scatterAdd scatter_S2000x1_S200000x1_S200000x1_1_0_0_1
    (broadcastInDim S2000x1 ![] bcast_S_S2000x1 (constant (F := Ideal) S_ .f32 0x00000000#32))
    (broadcastInDim S200000x1 ![0] bcast_S200000_S200000x1_0 ids) u

/-- The program's result: the segment sums of the gated column of the arguments. -/
theorem tail_eq (c : Dev nD) :
    Pipeline.afterTail₀ cfgs (dats m) 0 (V0 m) [hostOps1] c main_v12
      = segmentSums (m ((c : Thread nD τ).loc main_arg3)) (column m c) := by
  unfold Pipeline.afterTail₀
  show StableHlo.after hostOps1 _ (Proc.devRef .tc main_v12) = _
  after_results
  have e3 : Pipeline.withArrays (cfgs 0).spec c (V0 m c) (fun w => (dats m 0 c).arrAt w (cfgs 0).N)
      (Proc.devRef .tc main_arg3) = m ((c : Thread nD τ).loc main_arg3) :=
    (Pipeline.withArrays_of_ne _ c (V0 m c) _ main_arg3
      (by exact (by decide : ∀ w, Pipeline.arrRef spec0 w ≠ main_arg3))).trans (V_main_arg3 m c)
  have e9 : Pipeline.withArrays (cfgs 0).spec c (V0 m c) (fun w => (dats m 0 c).arrAt w (cfgs 0).N)
      (Proc.devRef .tc main_v9) = column m c :=
    (Pipeline.withArrays_arr spec0 launch0.win.arr_inj c _ _ 7).trans (final m c)
  rw [e3, e9]
  rfl

/-! ## The run, read -/

/-- Every weakly fair execution of the program terminates with its result at the segment sums of the gated column of
    the arguments, and the arguments unchanged. -/
theorem run : θ_run defs (onTc (τ := τ) (main (F := Ideal))) ⟨m, fun _ => 0, ρ⟩ fun r => ∀ c : Dev nD,
      r.2.mem ((c : Thread nD τ).loc main_v12) = segmentSums (m ((c : Thread nD τ).loc main_arg3)) (column m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c =>
    ⟨((h c).2 main_v12 (Pipeline.mem_restRefs_of main_v12 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.GatedMlp.Kernel

end
-- ==== Proof.lean ====
/-
  A gated two-layer perceptron over the rows of a feature matrix, summed by segments: the kernel against its reference.

  Both programs take a feature matrix `h` (200000 x 512), a first layer `W1` (256 x 512) with bias `b1`, a second layer
  `W2` (1 x 256) with bias `b2`, a gate layer `Ww` (1 x 512) with bias `bw`, and a segment id per row, and return, for
  each of 2000 segments, the sum over the segment's rows `r` of

      ( Σ_k silu( Σ_j h[r,j]·W1[k,j] + b1[k] ) · W2[0,k] + b2[0] )  ·  ( Σ_j h[r,j]·Ww[0,j] + bw[0] ).

  The reference computes the column of these row values with whole-array operations.  The kernel computes it in 100
  blocks of 2000 rows, from weight matrices transposed beforehand, multiplying in a narrower float format (which at
  the ideal values is no change) and with the logistic function as one operation where the reference writes
  `1 / (1 + e^(-x))` (the same function on the extended reals).  Read entry by entry the two columns are the same sums
  of the same products in the same order, so no finiteness of the inputs is needed; and both programs then apply the
  same scatter-add of the column into zeroed segments by the same segment ids.

  The three frames are the generated ones (the reference's is its generated run with the result dropped); the
  idealization rewrote nothing, so there is nothing to preserve; the equality of results is assembled here from the
  kernel's run read as the segment sums of the gated column and the reference's run read the same way.
-/
import proofs.«164686_j3736621547805_1_alg».proof.Defs
import proofs.«164686_j3736621547805_1_alg».proof.Proof.Gen.Kernel
import proofs.«164686_j3736621547805_1_alg».proof.Proof.Gen.Kernel.Skeleton
import proofs.«164686_j3736621547805_1_alg».proof.Proof.Gen.Kernel.Launch
import proofs.«164686_j3736621547805_1_alg».proof.Proof.Gen.Kernel.Points
import proofs.«164686_j3736621547805_1_alg».proof.Proof.Gen.Kernel.Frame
import proofs.«164686_j3736621547805_1_alg».proof.Proof.Gen.KernelIdeal
import proofs.«164686_j3736621547805_1_alg».proof.Proof.Gen.KernelIdeal.Skeleton
import proofs.«164686_j3736621547805_1_alg».proof.Proof.Gen.KernelIdeal.Launch
import proofs.«164686_j3736621547805_1_alg».proof.Proof.Gen.KernelIdeal.Points
import proofs.«164686_j3736621547805_1_alg».proof.Proof.Gen.KernelIdeal.Frame
import proofs.«164686_j3736621547805_1_alg».proof.Proof.Gen.ReferenceIdeal
import proofs.«164686_j3736621547805_1_alg».proof.Proof.Gen.Pre_finite_inputs
import proofs.«164686_j3736621547805_1_alg».proof.Proof.Gen.ReferenceIdeal.Run
import proofs.«164686_j3736621547805_1_alg».proof.Proof.Gen.ReferenceIdeal.Read
import proofs.«164686_j3736621547805_1_alg».proof.Proof.RefRow
import proofs.«164686_j3736621547805_1_alg».proof.Proof.KernelBlocks
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the segment sums of the gated column: the kernel by
    its run read block by block, the reference by its run read row by row; the scatter-add into zeroed segments is the
    same function of the same ids and the same column on both sides. -/
theorem algebraic : Cert.algebraic_KernelIdeal_ReferenceIdeal := by
  intro m ρ m' ρ' _ hagree
  refine ⟨fun c => Cert.GatedMlp.Kernel.segmentSums
      (m ((c.tc : Thread Cert.KernelIdeal.nD Cert.KernelIdeal.τ).loc Cert.KernelIdeal.main_arg3))
      (Cert.GatedMlp.Kernel.column m c), Cert.GatedMlp.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v19_eq]
  unfold Cert.ReferenceIdeal.Read.val_main_v19
  rw [Cert.GatedMlp.Ref.product_eq, h0, h3, h5, h6, h7, h8, h9, h10]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
